-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x1 : Shape := ⟨4, ![32, 512, 512, 1]⟩
abbrev S32x512x512x2 : Shape := ⟨4, ![32, 512, 512, 2]⟩
abbrev S_ : Shape := ⟨0, ![]⟩

class Facts : Prop where
  bcast_S_S32x512x512x1 : S_.BroadcastsInDim S32x512x512x1 (![] : Fin 0 → Fin S32x512x512x1.rank)
  reducesTo_S32x512x512x1_S_d0_1_2_3 : S32x512x512x1.ReducesTo [0, 1, 2, 3] S_
  h_S_ : 0 < S_.numel
  bcast_S_S32x512x512x2 : S_.BroadcastsInDim S32x512x512x2 (![] : Fin 0 → Fin S32x512x512x2.rank)
  reducesTo_S32x512x512x2_S_d0_1_2_3 : S32x512x512x2.ReducesTo [0, 1, 2, 3] S_

variable [Facts]

def fn {F : FTy → Type} [FloatOps F] (main_arg0 : FVec F S32x512x512x1 .f32) (main_arg1 : FVec F S32x512x512x2 .f32) : IVec S_ 1 :=
  let main_v0 : FVec F S32x512x512x1 .f32 := Host.absf main_arg0
  let main_cst : FVec F S_ .f32 := constant S_ .f32 0x7F800000#32
  let main_v1 : FVec F S32x512x512x1 .f32 := broadcastInDim S32x512x512x1 ![] bcast_S_S32x512x512x1 main_cst
  let main_v2 : IVec S32x512x512x1 1 := cmpf .olt main_v0 main_v1
  let main_c : IVec S_ 1 := constantI S_ 1 1#1
  let main_v3 : IVec S_ 1 := (fun x v => Host.reduce IntOp.andi x v reducesTo_S32x512x512x1_S_d0_1_2_3 h_S_) main_v2 main_c
  let main_v4 : FVec F S32x512x512x2 .f32 := Host.absf main_arg1
  let main_cst_0 : FVec F S_ .f32 := constant S_ .f32 0x7F800000#32
  let main_v5 : FVec F S32x512x512x2 .f32 := broadcastInDim S32x512x512x2 ![] bcast_S_S32x512x512x2 main_cst_0
  let main_v6 : IVec S32x512x512x2 1 := cmpf .olt main_v4 main_v5
  let main_c_1 : IVec S_ 1 := constantI S_ 1 1#1
  let main_v7 : IVec S_ 1 := (fun x v => Host.reduce IntOp.andi x v reducesTo_S32x512x512x2_S_d0_1_2_3 h_S_) main_v6 main_c_1
  let main_v8 : IVec S_ 1 := andi main_v3 main_v7
  main_v8
-- ==== Kernel.lean ====
abbrev S32x512x512x1 : Shape := ⟨4, ![32, 512, 512, 1]⟩
abbrev S32x512x512x2 : Shape := ⟨4, ![32, 512, 512, 2]⟩
abbrev S32x512x512 : Shape := ⟨3, ![32, 512, 512]⟩
abbrev S32x2x512x512 : Shape := ⟨4, ![32, 2, 512, 512]⟩
abbrev S1x512x512 : Shape := ⟨3, ![1, 512, 512]⟩
abbrev S1x2x512x512 : Shape := ⟨4, ![1, 2, 512, 512]⟩
abbrev S1x1x512x512 : Shape := ⟨4, ![1, 1, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x512x512x1, .f32⟩
  | .hbm, ⟨1, _⟩ => ⟨S32x512x512x2, .f32⟩
  | .hbm, ⟨2, _⟩ => ⟨S32x512x512, .f32⟩
  | .hbm, ⟨3, _⟩ => ⟨S32x2x512x512, .f32⟩
  | .hbm, ⟨4, _⟩ => ⟨S32x512x512, .f32⟩
  | .hbm, ⟨5, _⟩ => ⟨S32x512x512x1, .f32⟩
  | .local _ .vmem, ⟨0, _⟩ => ⟨S1x512x512, .f32⟩
  | .local _ .vmem, ⟨1, _⟩ => ⟨S1x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x512x512, .f32⟩
  | .local _ .vmem, ⟨5, _⟩ => ⟨S1x512x512, .f32⟩
  | _, _ => ⟨S32x512x512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x512x1_S32x512x512 : S32x512x512x1.ShapeCasts S32x512x512
  transposes_S32x512x512x2_S32x2x512x512_0_3_1_2 : S32x512x512x2.Transposes [0, 3, 1, 2] S32x2x512x512
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  rotates_S1x512x512_d1 : S1x512x512.Rotates 1 none
  iota_S1x512x512_d1_w32 : S1x512x512.Iotas .tc 32 [1]
  rotates_S1x512x512_d2 : S1x512x512.Rotates 2 none
  iota_S1x512x512_d2_w32 : S1x512x512.Iotas .tc 32 [2]
  inb_S1x2x512x512_S1x1x512x512_0_0_0_0 : ∀ a, (![0, 0, 0, 0] : Fin 4 → Nat) a + S1x1x512x512.size a ≤ S1x2x512x512.size a
  h_S1x1x512x512 : 0 < S1x1x512x512.numel
  shapeCasts_S1x1x512x512_S1x512x512 : S1x1x512x512.ShapeCasts S1x512x512
  inb_S1x2x512x512_S1x1x512x512_0_1_0_0 : ∀ a, (![0, 1, 0, 0] : Fin 4 → Nat) a + S1x1x512x512.size a ≤ S1x2x512x512.size a
  shapeCasts_S32x512x512_S32x512x512x1 : S32x512x512.ShapeCasts S32x512x512x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S32x2x512x512.size a
  hwx0_1 : ∀ i : grid0.Coords, EltTy.bits .f32 = 32 ∨ (Rect.block (s := S32x2x512x512) S1x2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)

variable [Facts₀]

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x1 : Shape := ⟨4, ![32, 512, 512, 1]⟩
abbrev S32x512x512x2 : Shape := ⟨4, ![32, 512, 512, 2]⟩
abbrev S_ : Shape := ⟨0, ![]⟩
abbrev S32x1x512x1 : Shape := ⟨4, ![32, 1, 512, 1]⟩
abbrev S32x513x512x1 : Shape := ⟨4, ![32, 513, 512, 1]⟩
abbrev S32x513x1x1 : Shape := ⟨4, ![32, 513, 1, 1]⟩
abbrev S32x513x513x1 : Shape := ⟨4, ![32, 513, 513, 1]⟩
abbrev S32x512x512 : Shape := ⟨3, ![32, 512, 512]⟩

abbrev nBuf : Space → Nat
  | .hbm => 24
  | .vmem => 0
  | .smem => 0
  | _ => 0

abbrev bufTy : (tb : Table) → Fin (tcTables nBuf tb) → BufTy
  | .hbm, ⟨0, _⟩ => ⟨S32x512x512x1, .f32⟩
  | .hbm, ⟨1, _⟩ => ⟨S32x512x512x2, .f32⟩
  | .hbm, ⟨2, _⟩ => ⟨S_, .i32⟩
  | .hbm, ⟨3, _⟩ => ⟨S32x1x512x1, .f32⟩
  | .hbm, ⟨4, _⟩ => ⟨S32x1x512x1, .f32⟩
  | .hbm, ⟨5, _⟩ => ⟨S32x1x512x1, .f32⟩
  | .hbm, ⟨6, _⟩ => ⟨S32x1x512x1, .f32⟩
  | .hbm, ⟨7, _⟩ => ⟨S32x513x512x1, .f32⟩
  | .hbm, ⟨8, _⟩ => ⟨S32x513x1x1, .f32⟩
  | .hbm, ⟨9, _⟩ => ⟨S32x513x1x1, .f32⟩
  | .hbm, ⟨10, _⟩ => ⟨S32x513x1x1, .f32⟩
  | .hbm, ⟨11, _⟩ => ⟨S32x513x1x1, .f32⟩
  | .hbm, ⟨12, _⟩ => ⟨S32x513x513x1, .f32⟩
  | .hbm, ⟨13, _⟩ => ⟨S32x512x512x1, .f32⟩
  | .hbm, ⟨14, _⟩ => ⟨S32x512x512x1, .f32⟩
  | .hbm, ⟨15, _⟩ => ⟨S32x512x512x1, .f32⟩
  | .hbm, ⟨16, _⟩ => ⟨S32x512x512x1, .f32⟩
  | .hbm, ⟨17, _⟩ => ⟨S32x512x512x1, .f32⟩
  | .hbm, ⟨18, _⟩ => ⟨S32x512x512x1, .f32⟩
  | .hbm, ⟨19, _⟩ => ⟨S32x512x512x2, .f32⟩
  | .hbm, ⟨20, _⟩ => ⟨S32x512x512x2, .f32⟩
  | .hbm, ⟨21, _⟩ => ⟨S_, .f32⟩
  | .hbm, ⟨22, _⟩ => ⟨S32x512x512, .f32⟩
  | .hbm, ⟨23, _⟩ => ⟨S32x512x512x1, .f32⟩
  | _, _ => ⟨S32x512x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  slices_S32x512x512x1_S32x1x512x1_0_0_0_0 : S32x512x512x1.Slices ![0, 0, 0, 0] S32x1x512x1
  slices_S32x512x512x1_S32x1x512x1_0_511_0_0 : S32x512x512x1.Slices ![0, 511, 0, 0] S32x1x512x1
  concatenates_S32x512x512x1_S32x1x512x1_S32x513x512x1_d1 : Shape.Concatenates [S32x512x512x1, S32x1x512x1] S32x513x512x1 1
  slices_S32x513x512x1_S32x513x1x1_0_0_0_0 : S32x513x512x1.Slices ![0, 0, 0, 0] S32x513x1x1
  slices_S32x513x512x1_S32x513x1x1_0_0_511_0 : S32x513x512x1.Slices ![0, 0, 511, 0] S32x513x1x1
  concatenates_S32x513x512x1_S32x513x1x1_S32x513x513x1_d2 : Shape.Concatenates [S32x513x512x1, S32x513x1x1] S32x513x513x1 2
  slices_S32x513x513x1_S32x512x512x1_0_1_0_0 : S32x513x513x1.Slices ![0, 1, 0, 0] S32x512x512x1
  slices_S32x513x513x1_S32x512x512x1_0_0_0_0 : S32x513x513x1.Slices ![0, 0, 0, 0] S32x512x512x1
  slices_S32x513x513x1_S32x512x512x1_0_0_1_0 : S32x513x513x1.Slices ![0, 0, 1, 0] S32x512x512x1
  concatenates_S32x512x512x1_S32x512x512x1_S32x512x512x2_d3 : Shape.Concatenates [S32x512x512x1, S32x512x512x1] S32x512x512x2 3
  reducesTo_S32x512x512x2_S32x512x512_d3 : S32x512x512x2.ReducesTo [3] S32x512x512
  h_S_ : 0 < S_.numel
  bcast_S32x512x512_S32x512x512x1_0_1_2 : S32x512x512.BroadcastsInDim S32x512x512x1 (![0, 1, 2] : Fin 3 → Fin S32x512x512x1.rank)

variable [Facts₀]

class Facts : Prop extends Facts₀ where

variable [Facts]
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.Spec.lean ====
/-
  The advection stencil as one function of the two argument arrays, in the two forms the programs compute it.

  The state is s[b, i, j, 0] over 32 x 512 x 512 and the velocity v[b, i, j, c] with two channels. Both programs
  return  dy * v[.., 0] + dx * v[.., 1]  where dy and dx are forward differences of s along the row axis i and
  the column axis j. They differ only at the last row and the last column:

    * the kernel form takes the difference against the cyclic successor and replaces it by 0 at position 511;
    * the reference form pads s by repeating its last row and column, so at position 511 it subtracts an entry
      from itself, and then adds the two channel products to 0.

  On the extended reals x - x = 0 holds exactly when x is a real number (it fails at the infinities), so the two
  forms agree on every state whose entries are real, whatever the velocity holds.
-/
import proofs.«155693_j70892730187952_2_alg».proof.Proof.LibRealEntries
import Idealize.ShloMosaic.Lib.ValueIdx

noncomputable section

namespace Cert.Advect

open Idealize.ShloMosaic Idealize.ShloMosaic.ValueIdx Cert.LibRealEntries

/-- The state's and the result's shape. -/
abbrev SS : Shape := ⟨4, ![32, 512, 512, 1]⟩
/-- The velocity's shape. -/
abbrev SV : Shape := ⟨4, ![32, 512, 512, 2]⟩

/-- The next position along an axis of 512, cyclically. -/
def nextWrap (a : Fin 512) : Fin 512 := ⟨(a.val + 1) % 512, Nat.mod_lt _ (by norm_num)⟩
/-- The next position along an axis of 512, staying at the last one. -/
def nextEdge (a : Fin 512) : Fin 512 := ⟨min (a.val + 1) 511, by omega⟩

theorem nextWrap_val (a : Fin 512) : (nextWrap a).val = (a.val + 1) % 512 := rfl
theorem nextEdge_val (a : Fin 512) : (nextEdge a).val = min (a.val + 1) 511 := rfl

theorem nextWrap_eq_nextEdge {a : Fin 512} (h : a.val < 511) : nextWrap a = nextEdge a :=
  Fin.ext (by rw [nextWrap_val, nextEdge_val]; omega)

theorem nextEdge_last {a : Fin 512} (h : ¬ a.val < 511) : nextEdge a = a :=
  Fin.ext (by rw [nextEdge_val]; omega)

/-! ## The kernel's form -/

/-- Row difference, cyclic successor, zero in the last row. -/
def dyK (s : SS.Idx → EReal) (b : Fin 32) (i j : Fin 512) : EReal :=
  if i.val < 511 then s (ix4 b (nextWrap i) j 0) - s (ix4 b i j 0) else 0
/-- Column difference, cyclic successor, zero in the last column. -/
def dxK (s : SS.Idx → EReal) (b : Fin 32) (i j : Fin 512) : EReal :=
  if j.val < 511 then s (ix4 b i (nextWrap j) 0) - s (ix4 b i j 0) else 0

/-- The kernel's result at the coordinates (b, i, j). -/
def advectKAt (s : SS.Idx → EReal) (v : SV.Idx → EReal) (b : Fin 32) (i j : Fin 512) : EReal :=
  dyK s b i j * v (ix4 b i j 0) + dxK s b i j * v (ix4 b i j 1)

/-- The kernel's result array. -/
def advectK (s : SS.Idx → EReal) (v : SV.Idx → EReal) : SS.Idx → EReal :=
  fun q => advectKAt s v (q 0) (q 1) (q 2)

/-! ## The reference's form -/

/-- Row difference against the state padded by its last row. -/
def dyR (s : SS.Idx → EReal) (b : Fin 32) (i j : Fin 512) : EReal :=
  s (ix4 b (nextEdge i) j 0) - s (ix4 b i j 0)
/-- Column difference against the state padded by its last column. -/
def dxR (s : SS.Idx → EReal) (b : Fin 32) (i j : Fin 512) : EReal :=
  s (ix4 b i (nextEdge j) 0) - s (ix4 b i j 0)

/-- The reference's result at the coordinates (b, i, j): the two channel products added to zero. -/
def advectRAt (s : SS.Idx → EReal) (v : SV.Idx → EReal) (b : Fin 32) (i j : Fin 512) : EReal :=
  0 + (dyR s b i j * v (ix4 b i j 0) + dxR s b i j * v (ix4 b i j 1))

/-- The reference's result array. -/
def advectR (s : SS.Idx → EReal) (v : SV.Idx → EReal) : SS.Idx → EReal :=
  fun q => advectRAt s v (q 0) (q 1) (q 2)

/-! ## The two forms agree on states with real entries -/

/-- A real number minus itself is zero on the extended reals. -/
theorem sub_self_of_isReal {x : EReal} (hx : IsReal x) : x - x = 0 := by
  obtain ⟨r, rfl⟩ := hx
  rw [← EReal.coe_sub, sub_self, EReal.coe_zero]

theorem dyR_eq_dyK (s : SS.Idx → EReal) (hs : ∀ q, IsReal (s q)) (b : Fin 32) (i j : Fin 512) :
    dyR s b i j = dyK s b i j := by
  unfold dyR dyK
  by_cases h : i.val < 511
  · rw [if_pos h, nextWrap_eq_nextEdge h]
  · rw [if_neg h, nextEdge_last h]; exact sub_self_of_isReal (hs _)

theorem dxR_eq_dxK (s : SS.Idx → EReal) (hs : ∀ q, IsReal (s q)) (b : Fin 32) (i j : Fin 512) :
    dxR s b i j = dxK s b i j := by
  unfold dxR dxK
  by_cases h : j.val < 511
  · rw [if_pos h, nextWrap_eq_nextEdge h]
  · rw [if_neg h, nextEdge_last h]; exact sub_self_of_isReal (hs _)

/-- The same at given coordinates. -/
theorem advectRAt_eq_advectKAt (s : SS.Idx → EReal) (v : SV.Idx → EReal) (hs : ∀ q, IsReal (s q))
    (b : Fin 32) (i j : Fin 512) : advectRAt s v b i j = advectKAt s v b i j := by
  unfold advectRAt advectKAt
  rw [zero_add, dyR_eq_dyK s hs, dxR_eq_dxK s hs]

/-- On a state whose entries are all real numbers the reference's form is the kernel's. -/
theorem advectR_eq_advectK (s : SS.Idx → EReal) (v : SV.Idx → EReal) (hs : ∀ q, IsReal (s q)) :
    advectR s v = advectK s v :=
  funext fun q => advectRAt_eq_advectKAt s v hs (q 0) (q 1) (q 2)

end Cert.Advect

end
-- ==== Proof.KernelPayload.lean ====
/-
  What the kernel body stores, entry by entry.

  At one grid point the body loads a [1, 512, 512] block x of the state and the two [1, 1, 512, 512] channel slabs
  vy, vx of the velocity block, and stores  dy * vy + dx * vx  where

    dy(i, j) = x(i+1 mod 512, j) - x(i, j)  if i < 511, else 0,
    dx(i, j) = x(i, j+1 mod 512) - x(i, j)  if j < 511, else 0.

  The cyclic successor comes from a rotation by 511 = -1 mod 512 positions along the axis; the guards come from
  comparing the axis coordinate, as a 32-bit word, with 511 (a comparison decided once for the 512 coordinates).
-/
import proofs.«155693_j70892730187952_2_alg».proof.Proof.Gen.KernelIdeal.Skeleton
import proofs.«155693_j70892730187952_2_alg».proof.Proof.Spec
import Idealize.ShloMosaic.Lib.Pipeline.Value
import Idealize.ShloMosaic.Lib.KernelVsHost
import Idealize.ShloMosaic.Lib.ValueIdx
import Idealize.ShloMosaic.PureOps.Ideal.Laws

noncomputable section

namespace Cert.Advect.Kernel

open Cert.KernelIdeal Cert.KernelIdeal.Gen Idealize.ShloMosaic Idealize.ShloMosaic.ValueIdx Cert.Advect

/-- A coordinate below 512, as a word, is signed-less-than 511 exactly when it is below 511. -/
theorem slt_511 : ∀ i : Fin 512,
    IntOp.cmpi .slt (BitVec.ofNat 32 i.val) 511#32 = if i.val < 511 then 1#1 else 0#1 := by
  decide +kernel

/-- Rotating the rows by 511 reads the cyclically next row. -/
theorem rot1_apply (h : S1x512x512.Rotates 1 none) (x : FVec Ideal S1x512x512 .f32) (i j : Fin 512) :
    dynamicRotate 1 511#32 none x h (ix3 0 i j) = x (ix3 0 (nextWrap i) j) := by
  refine dynamicRotate_apply 1 511#32 x h (ix3 0 i j) (ix3 0 (nextWrap i) j) ?_
  intro b
  match b with
  | ⟨0, _⟩ => rfl
  | ⟨1, _⟩ =>
    show (nextWrap i).val = if (1 : Fin 3) = 1 then (i.val + 512 - 511 % 512) % 512 else i.val
    rw [if_pos rfl, nextWrap_val]; omega
  | ⟨2, _⟩ => rfl

/-- Rotating the columns by 511 reads the cyclically next column. -/
theorem rot2_apply (h : S1x512x512.Rotates 2 none) (x : FVec Ideal S1x512x512 .f32) (i j : Fin 512) :
    dynamicRotate 2 511#32 none x h (ix3 0 i j) = x (ix3 0 i (nextWrap j)) := by
  refine dynamicRotate_apply 2 511#32 x h (ix3 0 i j) (ix3 0 i (nextWrap j)) ?_
  intro b
  match b with
  | ⟨0, _⟩ => rfl
  | ⟨1, _⟩ => rfl
  | ⟨2, _⟩ =>
    show (nextWrap j).val = if (2 : Fin 3) = 2 then (j.val + 512 - 511 % 512) % 512 else j.val
    rw [if_pos rfl, nextWrap_val]; omega

/-- The row coordinate as a word. -/
theorem iota1_apply (h : S1x512x512.Iotas .tc 32 [1]) (i j : Fin 512) :
    iota .tc S1x512x512 32 [1] h (ix3 0 i j) = BitVec.ofNat 32 i.val :=
  iota_single_apply .tc S1x512x512 32 1 h (ix3 0 i j)

/-- The column coordinate as a word. -/
theorem iota2_apply (h : S1x512x512.Iotas .tc 32 [2]) (i j : Fin 512) :
    iota .tc S1x512x512 32 [2] h (ix3 0 i j) = BitVec.ofNat 32 j.val :=
  iota_single_apply .tc S1x512x512 32 2 h (ix3 0 i j)

/-- A one-channel slab [1, 1, 512, 512] viewed as [1, 512, 512]: entry (0, i, j) is the slab's (0, 0, i, j). -/
theorem slab_apply (h : S1x1x512x512.ShapeCasts S1x512x512) (x : FVec Ideal S1x1x512x512 .f32) (i j : Fin 512) :
    shapeCast S1x512x512 x h (ix3 0 i j) = x (ix4 0 0 i j) := by
  refine shapeCast_apply x h (ix3 0 i j) (ix4 0 0 i j) ?_
  rw [Shape.rowMajor_val_four, Shape.rowMajor_val_three]
  rfl

/-- THE STORED VALUE at (0, i, j): the guarded forward differences of the state block times the two channel slabs. -/
theorem pay_apply (x0 : FVec Ideal S1x512x512 .f32) (x16 x18 : FVec Ideal S1x1x512x512 .f32) (i j : Fin 512) :
    k0_pay1 (F := Ideal) x0 x16 x18 (ix3 0 i j)
      = (if i.val < 511 then x0 (ix3 0 (nextWrap i) j) - x0 (ix3 0 i j) else 0) * x16 (ix4 0 0 i j)
        + (if j.val < 511 then x0 (ix3 0 i (nextWrap j)) - x0 (ix3 0 i j) else 0) * x18 (ix4 0 0 i j) := by
  unfold k0_pay1
  simp only [addf_apply, mulf_apply, subf_apply, select_apply, cmpi, broadcast_apply, shapeCast_self, slab_apply]
  rw [rot1_apply, rot2_apply, iota1_apply, iota2_apply, slt_511, slt_511]
  have hz : (FloatOps.ofBits (F := Ideal) FTy.f32 0#32 : EReal) = 0 := Ideal.ofBits_zero_f32
  rw [hz]
  by_cases hi : i.val < 511 <;> by_cases hj : j.val < 511 <;>
    simp only [hi, hj, if_true, if_false, select_one, select_zero]

end Cert.Advect.Kernel

end
-- ==== Proof.KernelBlocks.lean ====
/-
  From the blocks the grid points write back to the region's whole output array.

  The grid has 32 points; point t reads row block t of the two input arrays (the whole [512, 512] plane of batch
  entry t, both velocity channels) and writes back row block t of the output. So every entry (b, i, j) of the output
  is written by exactly the point b, and what it holds is the stencil of the INPUT ARRAYS at (b, i, j):

    stencil(b, i, j) = dy * vt(b, 0, i, j) + dx * vt(b, 1, i, j),
    dy = s3(b, i+1 mod 512, j) - s3(b, i, j) if i < 511 else 0,   dx likewise along j,

  with s3 the [32, 512, 512] state and vt the [32, 2, 512, 512] velocity as the region finds them. The rotation inside
  a block never leaves the block, because a block spans the whole row and column axes.
-/
import proofs.«155693_j70892730187952_2_alg».proof.Proof.Gen.KernelIdeal.Frame
import proofs.«155693_j70892730187952_2_alg».proof.Proof.KernelPayload
import Idealize.ShloMosaic.Lib.Pipeline.Value
import Idealize.ShloMosaic.Lib.ValueIdx

set_option maxRecDepth 16384

noncomputable section

namespace Cert.Advect.Kernel

open Cert.KernelIdeal Cert.KernelIdeal.Gen Idealize.ShloMosaic Idealize.ShloMosaic.TcCoe Idealize.SL.Sem
open Idealize.ShloMosaic.ValueIdx Cert.Advect
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl

/-- The stencil of a [32, 512, 512] state and a channel-major [32, 2, 512, 512] velocity at (b, i, j). -/
def stencil (s3 : S32x512x512.Idx → EReal) (vt : S32x2x512x512.Idx → EReal) (b : Fin 32) (i j : Fin 512) : EReal :=
  (if i.val < 511 then s3 (ix3 b (nextWrap i) j) - s3 (ix3 b i j) else 0) * vt (ix4 b 0 i j)
    + (if j.val < 511 then s3 (ix3 b i (nextWrap j)) - s3 (ix3 b i j) else 0) * vt (ix4 b 1 i j)

/-- The whole output array of the region as one function of its two input arrays. -/
def GK (s3 : S32x512x512.Idx → EReal) (vt : S32x2x512x512.Idx → EReal) : S32x512x512.Idx → EReal :=
  fun p => stencil s3 vt (p 0) (p 1) (p 2)

/-- The batch entry a grid point works on: the point's own number. -/
def bOf (t : Fin cfg0.N) : Fin 32 := Fin.cast N_0 t

/-- The three windows' block indices at point t: t on the batch axis, 0 on every other axis (decided over the grid). -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
      ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The state block at point t is plane t of the first input array. -/
theorem iblk0_apply (c : Dev nD) (t : Fin cfg0.N) (i j : Fin 512) :
    (iblk m c 0 t : Vec Ideal S1x512x512 .f32) (ix3 0 i j)
      = (V m c main_v0 : S32x512x512.Idx → EReal) (ix3 (bOf t) i j) := by
  obtain ⟨e0, e1, e2, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 512 + 1 * j.val = j.val; omega

/-- The velocity block at point t is the two channel planes of batch entry t of the second input array. -/
theorem iblk1_apply (c : Dev nD) (t : Fin cfg0.N) (ch : Fin 2) (i j : Fin 512) :
    (iblk m c 1 t : Vec Ideal S1x2x512x512 .f32) (ix4 0 ch i j)
      = (V m c main_v1 : S32x2x512x512.Idx → EReal) (ix4 (bOf t) ch i j) := by
  obtain ⟨-, -, -, e0, e1, e2, e3, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 4) * 1 + 1 * 0 = t.val; omega
  | ⟨1, _⟩ => show win0_1.index t (1 : Fin 4) * 2 + 1 * ch.val = ch.val; omega
  | ⟨2, _⟩ => show win0_1.index t (2 : Fin 4) * 512 + 1 * i.val = i.val; omega
  | ⟨3, _⟩ => show win0_1.index t (3 : Fin 4) * 512 + 1 * j.val = j.val; omega

/-- ONE POINT'S STORED VALUE: for blocks x0, x1 that are plane b of a state s3 and of a velocity vt, the body's stored
    value at (0, i, j) is the stencil of s3 and vt at (b, i, j). The two channel slabs are the block's entries
    (0, 0, i, j) and (0, 1, i, j). -/
theorem point_val (s3 : S32x512x512.Idx → EReal) (vt : S32x2x512x512.Idx → EReal) (b : Fin 32)
    (x0 : Vec Ideal S1x512x512 .f32) (x1 : Vec Ideal S1x2x512x512 .f32)
    (h0 : ∀ i j : Fin 512, x0 (ix3 0 i j) = s3 (ix3 b i j))
    (h1 : ∀ (ch : Fin 2) (i j : Fin 512), x1 (ix4 0 ch i j) = vt (ix4 b ch i j))
    (i j : Fin 512) :
    k0_pay1 (F := Ideal) (View.ld x0 r0_0) (View.ld x1 r0_1) (View.ld x1 r0_2) (ix3 0 i j) = stencil s3 vt b i j := by
  rw [pay_apply, View.ld_unit_zero (S := S1x512x512) hz3]
  have e1 : View.ld x1 r0_1 (ix4 0 0 i j) = x1 (ix4 0 0 i j) :=
    congrArg x1 (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  have e2 : View.ld x1 r0_2 (ix4 0 0 i j) = x1 (ix4 0 1 i j) :=
    congrArg x1 (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  rw [e1, e2, h0, h0, h0, h1, h1]
  rfl

/-- WHAT POINT t WRITES BACK is block t of the stencil of the two input arrays. -/
theorem flushed_eq (c : Dev nD) (t : Fin cfg0.N) :
    (dats m 0 c).flushed 2 t
      = ((cfg0.win 2).blk t).view.read (Elt Ideal) (GK (V m c main_v0) (V m c main_v1)) := by
  show (cfg0.win 2).cut (grid0.coords t) ((dats m 0 c).after 2 t) = _
  rw [after0_2]
  unfold out0_2
  rw [View.canon_unit_zero hz3]
  obtain ⟨-, -, -, -, -, -, -, e0, e1, e2⟩ := idx_facts t
  funext y
  rw [View.read_apply]
  have hy0 : (y 0).val = 0 := by have h : (y 0).val < 1 := (y 0).isLt; omega
  have hx : (cfg0.win 2).xinj (grid0.coords t) y = ix3 0 (y 1) (y 2) := by
    funext a
    apply Fin.ext
    match a with
    | ⟨0, _⟩ => exact hy0
    | ⟨1, _⟩ => rfl
    | ⟨2, _⟩ => rfl
  show k0_pay1 (F := Ideal) (View.ld (iblk m c 0 t) r0_0) (View.ld (iblk m c 1 t) r0_1) (View.ld (iblk m c 1 t) r0_2)
      ((cfg0.win 2).xinj (grid0.coords t) y) = _
  rw [hx]
  refine (point_val (V m c main_v0) (V m c main_v1) (bOf t) (iblk m c 0 t) (iblk m c 1 t)
    (iblk0_apply m c t) (iblk1_apply m c t) (y 1) (y 2)).trans ?_
  unfold GK
  have q0 : (((cfg0.win 2).blk t).view.emb y 0 : Fin 32) = bOf t := Fin.ext (by
    show win0_2.index t (0 : Fin 3) * 1 + 1 * (y 0).val = t.val; omega)
  have q1 : (((cfg0.win 2).blk t).view.emb y 1 : Fin 512) = y 1 := Fin.ext (by
    show win0_2.index t (1 : Fin 3) * 512 + 1 * (y 1).val = (y 1).val; omega)
  have q2 : (((cfg0.win 2).blk t).view.emb y 2 : Fin 512) = y 2 := Fin.ext (by
    show win0_2.index t (2 : Fin 3) * 512 + 1 * (y 2).val = (y 2).val; omega)
  show stencil _ _ (bOf t) (y 1) (y 2)
    = stencil _ _ (((cfg0.win 2).blk t).view.emb y 0) (((cfg0.win 2).blk t).view.emb y 1) (((cfg0.win 2).blk t).view.emb y 2)
  rw [q0, q1, q2]

/-- An index of the output array is in point t's block iff each coordinate is in the block's range on its axis. -/
theorem mem_blk (t : Fin cfg0.N) (p : S32x512x512.Idx) :
    p ∈ ((cfg0.win 2).blk t).view.set ↔ ∀ a : Fin 3, win0_2.index t a * S1x512x512.size a ≤ (p a).val
      ∧ (p a).val < win0_2.index t a * S1x512x512.size a + S1x512x512.size a := by
  show p ∈ ((View.whole main_v2).slice (win0_2.rect t)).set ↔ _
  rw [View.set_slice_whole, Rect.mem_set_unit]
  exact Iff.rfl

/-- Every index (b, i, j) of the output array is in the block of the point b. -/
theorem cover (p : S32x512x512.Idx) :
    ∃ t : Fin cfg0.N, (cfg0.win 2).flush t = true ∧ p ∈ ((cfg0.win 2).blk t).view.set := by
  have hp0 : (p 0).val < 32 := (p 0).isLt
  have hp1 : (p 1).val < 512 := (p 1).isLt
  have hp2 : (p 2).val < 512 := (p 2).isLt
  let t : Fin cfg0.N := Fin.cast N_0.symm ⟨(p 0).val, hp0⟩
  have ht : t.val = (p 0).val := rfl
  obtain ⟨-, -, -, -, -, -, -, e0, e1, e2⟩ := idx_facts t
  refine ⟨t, flush0_2 t, ?_⟩
  rw [mem_blk]
  intro a
  match a with
  | ⟨0, _⟩ =>
    show win0_2.index t (0 : Fin 3) * 1 ≤ (p 0).val ∧ (p 0).val < win0_2.index t (0 : Fin 3) * 1 + 1; omega
  | ⟨1, _⟩ =>
    show win0_2.index t (1 : Fin 3) * 512 ≤ (p 1).val ∧ (p 1).val < win0_2.index t (1 : Fin 3) * 512 + 512; omega
  | ⟨2, _⟩ =>
    show win0_2.index t (2 : Fin 3) * 512 ≤ (p 2).val ∧ (p 2).val < win0_2.index t (2 : Fin 3) * 512 + 512; omega

/-- THE OUTPUT ARRAY AFTER THE REGION is the stencil of the two input arrays. -/
theorem final (c : Dev nD) : (dats m 0 c).arrAt 2 cfg0.N = GK (V m c main_v0) (V m c main_v1) :=
  (dats m 0 c).arrAt_eq_of_cover 2 (GK (V m c main_v0) (V m c main_v1)) (fun t _ => flushed_eq m c t) cover

end Cert.Advect.Kernel

end
-- ==== Proof.KernelHost.lean ====
/-
  What the kernel's region finds in its two input arrays.

  Before the region the program reshapes the state [32, 512, 512, 1] to [32, 512, 512] (dropping the unit channel
  axis: entry (b, i, j) is the state's (b, i, j, 0), the row-major position being the same) and transposes the
  velocity [32, 512, 512, 2] to [32, 2, 512, 512] (entry (b, c, i, j) is the velocity's (b, i, j, c)), so that inside
  the region the channel is a leading axis of each block.
-/
import proofs.«155693_j70892730187952_2_alg».proof.Proof.Gen.KernelIdeal.Frame
import Idealize.ShloMosaic.Lib.Pipeline.Value
import Idealize.ShloMosaic.Lib.ValueIdx
import Idealize.ShloMosaic.Lib.StableHlo.Run

noncomputable section

namespace Cert.Advect.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The region's first input array is the state with its unit axis dropped. -/
theorem V_v0 (c : Dev nD) :
    (V m c main_v0 : S32x512x512.Idx → EReal)
      = shapeCast S32x512x512 (m ((c : Thread nD τ).loc main_arg0)) Gen.shapeCasts_S32x512x512x1_S32x512x512 := by
  show StableHlo.after hostOps0 (fun b => m (c, b)) (Proc.devRef .tc main_v0) = _
  after_results
  rfl

/-- The region's second input array is the velocity with the channel axis moved to position 1. -/
theorem V_v1 (c : Dev nD) :
    (V m c main_v1 : S32x2x512x512.Idx → EReal)
      = transpose S32x2x512x512 [0, 3, 1, 2] (m ((c : Thread nD τ).loc main_arg1))
          Gen.transposes_S32x512x512x2_S32x2x512x512_0_3_1_2 := by
  show StableHlo.after hostOps0 (fun b => m (c, b)) (Proc.devRef .tc main_v1) = _
  after_results

/-- Entry (b, i, j) of the first input array is the state at (b, i, j, 0). -/
theorem V_v0_apply (c : Dev nD) (b : Fin 32) (i j : Fin 512) :
    (V m c main_v0 : S32x512x512.Idx → EReal) (ix3 b i j)
      = (m ((c : Thread nD τ).loc main_arg0) : S32x512x512x1.Idx → EReal) (ix4 b i j 0) := by
  rw [V_v0]
  refine shapeCast_apply _ _ (ix3 b i j) (ix4 b i j 0) ?_
  rw [Shape.rowMajor_val_four, Shape.rowMajor_val_three]
  show ((b.val * 512 + i.val) * 512 + j.val) * 1 + 0 = (b.val * 512 + i.val) * 512 + j.val
  omega

/-- Entry (b, c, i, j) of the second input array is the velocity at (b, i, j, c). -/
theorem V_v1_apply (c : Dev nD) (b : Fin 32) (ch : Fin 2) (i j : Fin 512) :
    (V m c main_v1 : S32x2x512x512.Idx → EReal) (ix4 b ch i j)
      = (m ((c : Thread nD τ).loc main_arg1) : S32x512x512x2.Idx → EReal) (ix4 b i j ch) := by
  rw [V_v1]
  refine transpose_apply [0, 3, 1, 2] _ _ (ix4 b ch i j) (ix4 b i j ch) ?_
  intro a
  match a with
  | ⟨0, _⟩ => rfl
  | ⟨1, _⟩ => rfl
  | ⟨2, _⟩ => rfl
  | ⟨3, _⟩ => rfl

end Cert.Advect.Kernel

end
-- ==== Proof.KernelRun.lean ====
/-
  The kernel program's run, read: its result array is the kernel form of the stencil of the two arguments.

  After the region the program reshapes the region's [32, 512, 512] output to [32, 512, 512, 1]: entry (b, i, j, 0) of
  the result is entry (b, i, j) of the output (same row-major position). The output is the stencil of the region's
  input arrays, and those are the state with its unit axis dropped and the velocity with the channel axis moved, so
  the result at (b, i, j, 0) is  dy * v(b, i, j, 0) + dx * v(b, i, j, 1)  with the guarded cyclic differences of s.
-/
import proofs.«155693_j70892730187952_2_alg».proof.Proof.Gen.KernelIdeal.Frame
import proofs.«155693_j70892730187952_2_alg».proof.Proof.KernelBlocks
import proofs.«155693_j70892730187952_2_alg».proof.Proof.KernelHost
import proofs.«155693_j70892730187952_2_alg».proof.Proof.Spec
import Idealize.ShloMosaic.Lib.Pipeline.Value
import Idealize.ShloMosaic.Lib.StableHlo.Run

set_option maxRecDepth 16384

noncomputable section

namespace Cert.Advect.Kernel

open Cert.KernelIdeal Cert.KernelIdeal.Gen Idealize.ShloMosaic Idealize.ShloMosaic.TcCoe Idealize.SL.Sem
open Idealize.ShloMosaic.ValueIdx Cert.Advect Idealize.ShloMosaic.StableHlo
open Idealize.ShloMosaic.Pipeline (Dat)

variable (m : (ℓ : Loc nD τ sig) → Buf (Elt Ideal) ℓ) (ρ : Dev nD → PrngReg)

/-- The stencil of the region's input arrays at (b, i, j) is the kernel form of the stencil of the arguments there. -/
theorem stencil_eq (c : Dev nD) (b : Fin 32) (i j : Fin 512) :
    stencil (V m c main_v0) (V m c main_v1) b i j
      = advectKAt (m ((c : Thread nD τ).loc main_arg0)) (m ((c : Thread nD τ).loc main_arg1)) b i j := by
  unfold stencil advectKAt dyK dxK
  rw [V_v0_apply, V_v0_apply, V_v0_apply, V_v1_apply, V_v1_apply]

/-- After the run the result array is the kernel form of the stencil: the reshape of the region's output array, which
    is the stencil of the region's input arrays. -/
theorem post_v3 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v3)
      = advectK (m ((c : Thread nD τ).loc main_arg0)) (m ((c : Thread nD τ).loc main_arg1)) := by
  refine ((h c).2 main_v3 (Pipeline.mem_restRefs_of main_v3 (by decide) (by decide))).trans ?_
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = GK (V m c main_v0) (V m c main_v1) :=
    (Pipeline.withArrays_arr spec0 launch0.win.arr_inj c _ _ 2).trans (final m c)
  refine Eq.trans (b := shapeCast S32x512x512x1
    (Pipeline.withArrays (cfgs 0).spec c (V0 m c) (fun w => (dats m 0 c).arrAt w (cfgs 0).N) (Proc.devRef .tc main_v2))
    Gen.shapeCasts_S32x512x512_S32x512x512x1) rfl ?_
  rw [hA]
  funext q
  have hq3 : (q 3).val = 0 := by have h3 : (q 3).val < 1 := (q 3).isLt; omega
  refine (shapeCast_apply _ _ q (ix3 (q 0) (q 1) (q 2)) ?_).trans ?_
  · rw [Shape.rowMajor_val_three, Shape.rowMajor_val_four]
    show ((q 0).val * 512 + (q 1).val) * 512 + (q 2).val
      = (((q 0).val * 512 + (q 1).val) * 512 + (q 2).val) * 1 + (q 3).val
    omega
  · exact stencil_eq m c (q 0) (q 1) (q 2)

/-- The state argument ends as launched. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- The velocity argument ends as launched. -/
theorem kept_arg1 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).2 main_arg1 (Pipeline.mem_restRefs_of main_arg1 (by decide) (by decide))).trans (W_main_arg1 m (dats m) c)

/-- THE KERNEL PROGRAM'S RUN at the ideal instance: every weakly fair execution terminates with the result array at the
    kernel form of the stencil of the two arguments, and the arguments unchanged. -/
theorem run : θ_run defs (onTc (τ := τ) (main (F := Ideal))) ⟨m, fun _ => 0, ρ⟩ fun r => ∀ c : Dev nD,
      r.2.mem ((c.tc : Thread nD τ).loc main_v3)
        = advectK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨post_v3 m r h c, kept_arg0 m r h c, kept_arg1 m r h c⟩) (run_main m ρ)

end Cert.Advect.Kernel

end
-- ==== Proof.RefTerm.lean ====
/-
  The reference program's result as ONE term of its two argument arrays.

  The program pads the state s : [32, 512, 512, 1] to [32, 513, 513, 1] by repeating its last row (axis 1) and then
  the last column (axis 2) of the row-padded array; each repeated piece passes through a reversal along an axis of
  extent one, which changes nothing. It then takes the two forward differences as differences of shifted windows of
  the padded array, stacks them along the last axis, multiplies by the velocity entrywise, and sums the two channels
  starting from the constant 0, restoring the unit last axis by a broadcast.

  The definitions below are the program's operations composed in its order, at the ideal instance (a float is an
  extended real and the arithmetic is exact). Nothing is proved here.
-/
import proofs.«155693_j70892730187952_2_alg».proof.Proof.Gen.ReferenceIdeal
import Idealize.ShloMosaic.PureOps.Ideal

noncomputable section

namespace Cert.Advect.Ref

open Cert.ReferenceIdeal Cert.ReferenceIdeal.Facts₀ Idealize.ShloMosaic

/-- The state followed, along the row axis, by a copy of its last row: [32, 513, 512, 1]. -/
def padRows (s : (⟨S32x512x512x1, .f32⟩ : BufTy).Contents (Elt Ideal)) :
    (⟨S32x513x512x1, .f32⟩ : BufTy).Contents (Elt Ideal) :=
  concatenate S32x513x512x1 1
    [⟨S32x512x512x1, s⟩,
     ⟨S32x1x512x1, Host.reverse [1]
        (extractStridedSlice S32x1x512x1 ![0, 511, 0, 0] s slices_S32x512x512x1_S32x1x512x1_0_511_0_0)⟩]
    concatenates_S32x512x512x1_S32x1x512x1_S32x513x512x1_d1

/-- The row-padded state followed, along the column axis, by a copy of its last column: [32, 513, 513, 1]. -/
def padded (s : (⟨S32x512x512x1, .f32⟩ : BufTy).Contents (Elt Ideal)) :
    (⟨S32x513x513x1, .f32⟩ : BufTy).Contents (Elt Ideal) :=
  concatenate S32x513x513x1 2
    [⟨S32x513x512x1, padRows s⟩,
     ⟨S32x513x1x1, Host.reverse [2]
        (extractStridedSlice S32x513x1x1 ![0, 0, 511, 0] (padRows s) slices_S32x513x512x1_S32x513x1x1_0_0_511_0)⟩]
    concatenates_S32x513x512x1_S32x513x1x1_S32x513x513x1_d2

/-- The row difference: the padded state's window one row down, minus its window at the origin. -/
def diffRows (s : (⟨S32x512x512x1, .f32⟩ : BufTy).Contents (Elt Ideal)) :
    (⟨S32x512x512x1, .f32⟩ : BufTy).Contents (Elt Ideal) :=
  subf (F := Ideal) (φ := .f32) (extractStridedSlice S32x512x512x1 ![0, 1, 0, 0] (padded s) slices_S32x513x513x1_S32x512x512x1_0_1_0_0)
       (extractStridedSlice S32x512x512x1 ![0, 0, 0, 0] (padded s) slices_S32x513x513x1_S32x512x512x1_0_0_0_0)

/-- The column difference: the padded state's window one column right, minus its window at the origin. -/
def diffCols (s : (⟨S32x512x512x1, .f32⟩ : BufTy).Contents (Elt Ideal)) :
    (⟨S32x512x512x1, .f32⟩ : BufTy).Contents (Elt Ideal) :=
  subf (F := Ideal) (φ := .f32) (extractStridedSlice S32x512x512x1 ![0, 0, 1, 0] (padded s) slices_S32x513x513x1_S32x512x512x1_0_0_1_0)
       (extractStridedSlice S32x512x512x1 ![0, 0, 0, 0] (padded s) slices_S32x513x513x1_S32x512x512x1_0_0_0_0)

/-- The two differences stacked along the last axis, times the velocity: [32, 512, 512, 2]. -/
def products (s : (⟨S32x512x512x1, .f32⟩ : BufTy).Contents (Elt Ideal))
    (v : (⟨S32x512x512x2, .f32⟩ : BufTy).Contents (Elt Ideal)) :
    (⟨S32x512x512x2, .f32⟩ : BufTy).Contents (Elt Ideal) :=
  mulf (F := Ideal) (φ := .f32) (concatenate S32x512x512x2 3 [⟨S32x512x512x1, diffRows s⟩, ⟨S32x512x512x1, diffCols s⟩]
          concatenates_S32x512x512x1_S32x512x512x1_S32x512x512x2_d3) v

/-- The reference's result: the channel sum of the products from the constant 0, with the unit last axis restored. -/
def refTerm (s : (⟨S32x512x512x1, .f32⟩ : BufTy).Contents (Elt Ideal))
    (v : (⟨S32x512x512x2, .f32⟩ : BufTy).Contents (Elt Ideal)) :
    (⟨S32x512x512x1, .f32⟩ : BufTy).Contents (Elt Ideal) :=
  broadcastInDim S32x512x512x1 ![0, 1, 2] bcast_S32x512x512_S32x512x512x1_0_1_2
    (Host.reduceAdd (φ := .f32) (products s v) (constant (F := Ideal) S_ .f32 0x00000000#32)
      reducesTo_S32x512x512x2_S32x512x512_d3 h_S_)

end Cert.Advect.Ref

end
-- ==== Proof.RefRun.lean ====
/-
  The reference program's run.

  The program is a straight line of 22 array operations: the integer constant its padding call receives and does
  not use, the ten operations of the padding function written out at its call (three row slices of the state, a
  reversal along an axis of extent one, the concatenation along the row axis, three column slices, a second such
  reversal, the concatenation along the column axis), and the eleven operations that follow (four windows of the
  padded array, two subtractions, the stacking of the differences, the product with the velocity, the constant 0,
  the channel sum, the broadcast back to a unit last axis).

  Run from any memory, every fair execution terminates; the result buffer then holds the operations' composed term
  of the two argument arrays (the term named in the module that defines it), and the arguments are unchanged.
-/
import proofs.«155693_j70892730187952_2_alg».proof.Proof.RefTerm
import Idealize.ShloMosaic.Lib.StableHlo.Run

noncomputable section

namespace Cert.Advect.Ref

open Cert.ReferenceIdeal Cert.ReferenceIdeal.Facts₀ Idealize.ShloMosaic Idealize.ShloMosaic.TcCoe Idealize.SL.Sem
  Idealize.ShloMosaic.StableHlo

/-- The program's 22 operations, in order; the padding function's ten stand where it is called. -/
abbrev ops : List (HloOp τ sig (Elt Ideal)) :=
  [ nullary main_c (constantI S_ 32 0#32),
    TRef.unary (.of main_arg0 : TRef sig ⟨S32x512x512x1, .f32⟩) main_call0.v0 (extractStridedSlice S32x1x512x1 ![0, 0, 0, 0] · slices_S32x512x512x1_S32x1x512x1_0_0_0_0),
    TRef.unary (.of main_arg0 : TRef sig ⟨S32x512x512x1, .f32⟩) main_call0.v1 (extractStridedSlice S32x1x512x1 ![0, 511, 0, 0] · slices_S32x512x512x1_S32x1x512x1_0_511_0_0),
    TRef.unary (.of main_arg0 : TRef sig ⟨S32x512x512x1, .f32⟩) main_call0.v2 (extractStridedSlice S32x1x512x1 ![0, 511, 0, 0] · slices_S32x512x512x1_S32x1x512x1_0_511_0_0),
    TRef.unary main_call0.v2 main_call0.call0.v0 (Host.reverse [1]),
    TRef.binary (.of main_arg0 : TRef sig ⟨S32x512x512x1, .f32⟩) main_call0.call0.v0 main_call0.v4 (fun a b => concatenate S32x513x512x1 1 [⟨S32x512x512x1, a⟩, ⟨S32x1x512x1, b⟩] concatenates_S32x512x512x1_S32x1x512x1_S32x513x512x1_d1),
    TRef.unary main_call0.v4 main_call0.v5 (extractStridedSlice S32x513x1x1 ![0, 0, 0, 0] · slices_S32x513x512x1_S32x513x1x1_0_0_0_0),
    TRef.unary main_call0.v4 main_call0.v6 (extractStridedSlice S32x513x1x1 ![0, 0, 511, 0] · slices_S32x513x512x1_S32x513x1x1_0_0_511_0),
    TRef.unary main_call0.v4 main_call0.v7 (extractStridedSlice S32x513x1x1 ![0, 0, 511, 0] · slices_S32x513x512x1_S32x513x1x1_0_0_511_0),
    TRef.unary main_call0.v7 main_call0.call1.v0 (Host.reverse [2]),
    TRef.binary main_call0.v4 main_call0.call1.v0 main_call0.v9 (fun a b => concatenate S32x513x513x1 2 [⟨S32x513x512x1, a⟩, ⟨S32x513x1x1, b⟩] concatenates_S32x513x512x1_S32x513x1x1_S32x513x513x1_d2),
    unary main_v0 main_v1 ((extractStridedSlice S32x512x512x1 ![0, 1, 0, 0] · slices_S32x513x513x1_S32x512x512x1_0_1_0_0) : (⟨S32x513x513x1, .f32⟩ : BufTy).Contents (Elt Ideal) → (⟨S32x512x512x1, .f32⟩ : BufTy).Contents (Elt Ideal)),
    unary main_v0 main_v2 ((extractStridedSlice S32x512x512x1 ![0, 0, 0, 0] · slices_S32x513x513x1_S32x512x512x1_0_0_0_0) : (⟨S32x513x513x1, .f32⟩ : BufTy).Contents (Elt Ideal) → (⟨S32x512x512x1, .f32⟩ : BufTy).Contents (Elt Ideal)),
    binary main_v1 main_v2 main_v3 (subf (F := Ideal) (φ := .f32) : (⟨S32x512x512x1, .f32⟩ : BufTy).Contents (Elt Ideal) → (⟨S32x512x512x1, .f32⟩ : BufTy).Contents (Elt Ideal) → (⟨S32x512x512x1, .f32⟩ : BufTy).Contents (Elt Ideal)),
    unary main_v0 main_v4 ((extractStridedSlice S32x512x512x1 ![0, 0, 1, 0] · slices_S32x513x513x1_S32x512x512x1_0_0_1_0) : (⟨S32x513x513x1, .f32⟩ : BufTy).Contents (Elt Ideal) → (⟨S32x512x512x1, .f32⟩ : BufTy).Contents (Elt Ideal)),
    unary main_v0 main_v5 ((extractStridedSlice S32x512x512x1 ![0, 0, 0, 0] · slices_S32x513x513x1_S32x512x512x1_0_0_0_0) : (⟨S32x513x513x1, .f32⟩ : BufTy).Contents (Elt Ideal) → (⟨S32x512x512x1, .f32⟩ : BufTy).Contents (Elt Ideal)),
    binary main_v4 main_v5 main_v6 (subf (F := Ideal) (φ := .f32) : (⟨S32x512x512x1, .f32⟩ : BufTy).Contents (Elt Ideal) → (⟨S32x512x512x1, .f32⟩ : BufTy).Contents (Elt Ideal) → (⟨S32x512x512x1, .f32⟩ : BufTy).Contents (Elt Ideal)),
    binary main_v3 main_v6 main_v7 ((fun a b => concatenate S32x512x512x2 3 [⟨S32x512x512x1, a⟩, ⟨S32x512x512x1, b⟩] concatenates_S32x512x512x1_S32x512x512x1_S32x512x512x2_d3) : (⟨S32x512x512x1, .f32⟩ : BufTy).Contents (Elt Ideal) → (⟨S32x512x512x1, .f32⟩ : BufTy).Contents (Elt Ideal) → (⟨S32x512x512x2, .f32⟩ : BufTy).Contents (Elt Ideal)),
    binary main_v7 main_arg1 main_v8 (mulf (F := Ideal) (φ := .f32) : (⟨S32x512x512x2, .f32⟩ : BufTy).Contents (Elt Ideal) → (⟨S32x512x512x2, .f32⟩ : BufTy).Contents (Elt Ideal) → (⟨S32x512x512x2, .f32⟩ : BufTy).Contents (Elt Ideal)),
    nullary main_cst (constant (F := Ideal) S_ .f32 0x00000000#32),
    binary main_v8 main_cst main_v9 ((fun x v => Host.reduceAdd (F := Ideal) (φ := .f32) x v reducesTo_S32x512x512x2_S32x512x512_d3 h_S_) : (⟨S32x512x512x2, .f32⟩ : BufTy).Contents (Elt Ideal) → (⟨S_, .f32⟩ : BufTy).Contents (Elt Ideal) → (⟨S32x512x512, .f32⟩ : BufTy).Contents (Elt Ideal)),
    unary main_v9 main_v10 (broadcastInDim S32x512x512x1 ![0, 1, 2] bcast_S32x512x512_S32x512x512x1_0_1_2 : (⟨S32x512x512, .f32⟩ : BufTy).Contents (Elt Ideal) → (⟨S32x512x512x1, .f32⟩ : BufTy).Contents (Elt Ideal)) ]

-- twenty-two binds re-associated
set_option maxRecDepth 1024 in
/-- The program is that straight line: the called functions' definitions opened at their calls, both sides are one
    chain of steps once sequencing is re-associated. -/
theorem main_eq (c : Dev nD) : main (F := Ideal) c = seq ops := by
  simp only [main, fn_pad.body, fn_flip.body, fn_flip_0.body, seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches device buffers only. -/
theorem ops_sub : (ops : List (HloOp τ sig (Elt Ideal))).Forall fun op => op.bufs ⊆ tcRefs τ sig :=
  ⟨nullary_bufs_sub .., unary_bufs_sub .., unary_bufs_sub .., unary_bufs_sub .., unary_bufs_sub .., binary_bufs_sub ..,
    unary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., binary_bufs_sub .., nullary_bufs_sub .., binary_bufs_sub .., unary_bufs_sub ..⟩

/-- What the result buffer holds after the 22 operations, from any contents `V` of the buffers: the composed term of
    the two arguments' contents. The fold is unrolled and each operation's result read at its own buffer; the typed
    references' transports are the identity at these literal references, so what is left holds by computation. -/
theorem out_eq (V : Valuation τ sig (Elt Ideal)) :
    after ops V (main_v10 : DevRef τ sig)
      = refTerm (V (main_arg0 : DevRef τ sig)) (V (main_arg1 : DevRef τ sig)) := by
  after_results
  rfl

/-- No operation writes the state's buffer. -/
theorem arg0_eq (V : Valuation τ sig (Elt Ideal)) :
    after ops V (main_arg0 : DevRef τ sig) = V (main_arg0 : DevRef τ sig) := by
  after_results

/-- No operation writes the velocity's buffer. -/
theorem arg1_eq (V : Valuation τ sig (Elt Ideal)) :
    after ops V (main_arg1 : DevRef τ sig) = V (main_arg1 : DevRef τ sig) := by
  after_results

/-- On every device, from any memory with zero counters: every weakly fair execution of the program terminates, with
    the result buffer at the composed term of the two arguments' launch contents and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (out_eq _), (h c main_arg0).trans (arg0_eq _),
      (h c main_arg1).trans (arg1_eq _)⟩)
    (run_seq scopedRefs_eq scopedSems_eq defs main (fun _ => ops) main_eq (fun _ => ops_sub) m ρ)

end Cert.Advect.Ref

end
-- ==== Proof.RefPad.lean ====
/-
  The padded state read at an index.

  The reference pads the state s : [32, 512, 512, 1] to [32, 513, 513, 1]: first one more row, a copy of row 511;
  then one more column, a copy of column 511 of the row-padded array. Each copied piece passes through a reversal
  along the axis it was sliced on, whose extent is one, so the reversal changes nothing. Hence, at every index
  (b, i', j', 0) with i', j' < 513,

      padded s (b, i', j', 0) = s (b, min i' 511, min j' 511, 0).

  A two-piece concatenation is read by cases on the piece its coordinate along the joined axis falls in: below the
  first extent it is the first piece at the same index; at or past it, the second piece at the coordinate the first
  extent less. Both cases land on `min · 511` of the coordinate.
-/
import proofs.«155693_j70892730187952_2_alg».proof.Proof.RefTerm
import Idealize.ShloMosaic.Lib.ValueIdx
import Idealize.ShloMosaic.Lib.Pipeline.Value

noncomputable section

namespace Cert.Advect.Ref

open Cert.ReferenceIdeal Cert.ReferenceIdeal.Facts₀ Idealize.ShloMosaic Idealize.ShloMosaic.ValueIdx

/-- Reversing an array along axes of extent one changes nothing: on such an axis the one coordinate is its own
    mirror image. -/
theorem reverse_unit {s : Shape} {α : Type} (axes : List (Fin s.rank)) (h : ∀ a ∈ axes, s.size a = 1)
    (x : s.Idx → α) : Host.reverse axes x = x := by
  funext j
  unfold Host.reverse
  refine congrArg x (funext fun a => ?_)
  split
  · next ha =>
    have h1 := h a ha
    have h2 := (j a).isLt
    have h3 := ((j a).rev).isLt
    exact Fin.ext (by omega)
  · rfl

/-- The row-padded state at (b, i', j, 0), i' < 513: the state at row `min i' 511`. -/
theorem padRows_apply (s : (⟨S32x512x512x1, .f32⟩ : BufTy).Contents (Elt Ideal)) (b : Fin 32) (i' : Fin 513)
    (j : Fin 512) :
    padRows s (ix4 b i' j (0 : Fin 1)) = s (ix4 b (⟨min i'.val 511, by omega⟩ : Fin 512) j (0 : Fin 1)) := by
  unfold padRows
  rw [reverse_unit [1] (fun a ha => by simp at ha; subst ha; rfl)]
  by_cases hi : i'.val < 512
  · -- the first piece: the state itself, at the same index
    refine concatenate_pair_apply_left (t := S32x513x512x1) (s₁ := S32x512x512x1) (s₂ := S32x1x512x1) (1 : Fin 4) s _ _ (ix4 b i' j (0 : Fin 1)) rfl
      (ix4 b (⟨min i'.val 511, by omega⟩ : Fin 512) j (0 : Fin 1)) fun a => ?_
    match a with
    | ⟨0, _⟩ => rfl
    | ⟨1, _⟩ => show min i'.val 511 = i'.val; omega
    | ⟨2, _⟩ => rfl
    | ⟨3, _⟩ => rfl
  · -- the second piece: the slice at row 511, at row 0 of the piece
    have hi' : i'.val = 512 := by have := i'.isLt; omega
    refine (concatenate_pair_apply_right (t := S32x513x512x1) (s₁ := S32x512x512x1) (s₂ := S32x1x512x1) (1 : Fin 4) s _ _ (ix4 b i' j (0 : Fin 1)) rfl rfl
      (ix4 b (0 : Fin 1) j (0 : Fin 1)) (fun a ha => ?_) ?_).trans ?_
    · match a with
      | ⟨0, _⟩ => rfl
      | ⟨1, _⟩ => exact absurd rfl ha
      | ⟨2, _⟩ => rfl
      | ⟨3, _⟩ => rfl
    · show (0 : ℕ) + 512 = i'.val; omega
    · refine extractStridedSlice_apply _ s _ (ix4 b (0 : Fin 1) j (0 : Fin 1))
        (ix4 b (⟨min i'.val 511, by omega⟩ : Fin 512) j (0 : Fin 1)) fun a => ?_
      match a with
      | ⟨0, _⟩ => show b.val = 0 + b.val; omega
      | ⟨1, _⟩ => show min i'.val 511 = 511 + 0; omega
      | ⟨2, _⟩ => show j.val = 0 + j.val; omega
      | ⟨3, _⟩ => show (0 : ℕ) = 0 + 0; rfl

/-- The padded state at (b, i', j', 0), i', j' < 513: the state at row `min i' 511`, column `min j' 511`. -/
theorem padded_apply (s : (⟨S32x512x512x1, .f32⟩ : BufTy).Contents (Elt Ideal)) (b : Fin 32) (i' j' : Fin 513) :
    padded s (ix4 b i' j' (0 : Fin 1))
      = s (ix4 b (⟨min i'.val 511, by omega⟩ : Fin 512) (⟨min j'.val 511, by omega⟩ : Fin 512) (0 : Fin 1)) := by
  unfold padded
  rw [reverse_unit [2] (fun a ha => by simp at ha; subst ha; rfl)]
  refine Eq.trans ?_ (padRows_apply s b i' (⟨min j'.val 511, by omega⟩ : Fin 512))
  by_cases hj : j'.val < 512
  · -- the first piece: the row-padded state, at the same index
    refine concatenate_pair_apply_left (t := S32x513x513x1) (s₁ := S32x513x512x1) (s₂ := S32x513x1x1) (2 : Fin 4) (padRows s) _ _ (ix4 b i' j' (0 : Fin 1)) rfl
      (ix4 b i' (⟨min j'.val 511, by omega⟩ : Fin 512) (0 : Fin 1)) fun a => ?_
    match a with
    | ⟨0, _⟩ => rfl
    | ⟨1, _⟩ => rfl
    | ⟨2, _⟩ => show min j'.val 511 = j'.val; omega
    | ⟨3, _⟩ => rfl
  · -- the second piece: the slice at column 511, at column 0 of the piece
    have hj' : j'.val = 512 := by have := j'.isLt; omega
    refine (concatenate_pair_apply_right (t := S32x513x513x1) (s₁ := S32x513x512x1) (s₂ := S32x513x1x1) (2 : Fin 4) (padRows s) _ _ (ix4 b i' j' (0 : Fin 1)) rfl rfl
      (ix4 b i' (0 : Fin 1) (0 : Fin 1)) (fun a ha => ?_) ?_).trans ?_
    · match a with
      | ⟨0, _⟩ => rfl
      | ⟨1, _⟩ => rfl
      | ⟨2, _⟩ => exact absurd rfl ha
      | ⟨3, _⟩ => rfl
    · show (0 : ℕ) + 512 = j'.val; omega
    · refine extractStridedSlice_apply _ (padRows s) _ (ix4 b i' (0 : Fin 1) (0 : Fin 1))
        (ix4 b i' (⟨min j'.val 511, by omega⟩ : Fin 512) (0 : Fin 1)) fun a => ?_
      match a with
      | ⟨0, _⟩ => show b.val = 0 + b.val; omega
      | ⟨1, _⟩ => show i'.val = 0 + i'.val; omega
      | ⟨2, _⟩ => show min j'.val 511 = 511 + 0; omega
      | ⟨3, _⟩ => show (0 : ℕ) = 0 + 0; rfl

end Cert.Advect.Ref

end
-- ==== Proof.RefValue.lean ====
/-
  The reference program's result is the advection stencil in its padded form.

  With the padded state read at an index (the state at `min · 511` of each coordinate), the rest of the program is
  read the same way, outermost operation first:

    * a window of the padded array at offset (0, di, dj, 0) read at (b, i, j, 0) is the padded array at
      (b, i + di, j + dj, 0), hence the state at (b, min (i + di) 511, min (j + dj) 511, 0); for di = 1 the row is
      the next one staying at the last, and for di = 0 it is i itself since i ≤ 511; likewise along the columns;
    * so the row difference at (b, i, j, 0) is s(b, next i, j) - s(b, i, j), the column difference
      s(b, i, next j) - s(b, i, j);
    * the two differences stacked along the last axis and multiplied by the velocity give, at channel 0 and 1, the
      row difference times v(b, i, j, 0) and the column difference times v(b, i, j, 1);
    * the sum over the channel axis, an axis of extent two, from the constant 0 is 0 plus the two products;
    * the broadcast back to a unit last axis reads that sum at (b, i, j).

  That is the stencil's padded form at every index, so the run's result buffer holds it.
-/
import proofs.«155693_j70892730187952_2_alg».proof.Proof.RefRun
import proofs.«155693_j70892730187952_2_alg».proof.Proof.RefPad
import proofs.«155693_j70892730187952_2_alg».proof.Proof.Spec
import Idealize.ShloMosaic.Lib.IdealHost
import Idealize.ShloMosaic.PureOps.Ideal.Laws

noncomputable section

namespace Cert.Advect.Ref

open Cert.ReferenceIdeal Cert.ReferenceIdeal.Facts₀ Idealize.ShloMosaic Idealize.ShloMosaic.ValueIdx
  Idealize.ShloMosaic.TcCoe Idealize.SL.Sem

/-- Two rank-4 indices with equal coordinates are equal. -/
theorem ix4_congr {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha hb hc hd; rfl

/-- A window of the padded state at offset (0, di, dj, 0), di, dj ≤ 1, read at (b, i, j, 0): the state at
    (b, min (i + di) 511, min (j + dj) 511, 0). -/
theorem window_apply (s : (⟨S32x512x512x1, .f32⟩ : BufTy).Contents (Elt Ideal)) (off : Fin 4 → Nat) (di dj : Nat) (hdi : di ≤ 1) (hdj : dj ≤ 1)
    (h0 : off 0 = 0) (h1 : off 1 = di) (h2 : off 2 = dj) (h3 : off 3 = 0)
    (h : S32x513x513x1.Slices off S32x512x512x1) (b : Fin 32) (i j : Fin 512) :
    extractStridedSlice S32x512x512x1 off (padded s) h (ix4 b i j (0 : Fin 1))
      = s (ix4 b (⟨min (i.val + di) 511, by omega⟩ : Fin 512) (⟨min (j.val + dj) 511, by omega⟩ : Fin 512) (0 : Fin 1)) := by
  refine (extractStridedSlice_apply off (padded s) h (ix4 b i j (0 : Fin 1))
    (ix4 b (⟨i.val + di, by omega⟩ : Fin 513) (⟨j.val + dj, by omega⟩ : Fin 513) (0 : Fin 1)) fun a => ?_).trans
    (padded_apply s b _ _)
  match a with
  | ⟨0, _⟩ => show b.val = off 0 + b.val; omega
  | ⟨1, _⟩ => show i.val + di = off 1 + i.val; omega
  | ⟨2, _⟩ => show j.val + dj = off 2 + j.val; omega
  | ⟨3, _⟩ => show (0 : ℕ) = off 3 + 0; omega

/-- The row difference at (b, i, j, 0). -/
theorem diffRows_apply (s : (⟨S32x512x512x1, .f32⟩ : BufTy).Contents (Elt Ideal)) (b : Fin 32) (i j : Fin 512) :
    diffRows s (ix4 b i j (0 : Fin 1)) = Cert.Advect.dyR s b i j := by
  unfold diffRows Cert.Advect.dyR
  refine (subf_apply _ _ _).trans (congrArg₂ (· - ·) ?_ ?_)
  · refine (window_apply s _ 1 0 (by omega) (by omega) rfl rfl rfl rfl _ b i j).trans (congrArg s ?_)
    exact ix4_congr rfl (Fin.ext rfl) (Fin.ext (by show min (j.val + 0) 511 = j.val; omega)) rfl
  · refine (window_apply s _ 0 0 (by omega) (by omega) rfl rfl rfl rfl _ b i j).trans (congrArg s ?_)
    exact ix4_congr rfl (Fin.ext (by show min (i.val + 0) 511 = i.val; omega))
      (Fin.ext (by show min (j.val + 0) 511 = j.val; omega)) rfl

/-- The column difference at (b, i, j, 0). -/
theorem diffCols_apply (s : (⟨S32x512x512x1, .f32⟩ : BufTy).Contents (Elt Ideal)) (b : Fin 32) (i j : Fin 512) :
    diffCols s (ix4 b i j (0 : Fin 1)) = Cert.Advect.dxR s b i j := by
  unfold diffCols Cert.Advect.dxR
  refine (subf_apply _ _ _).trans (congrArg₂ (· - ·) ?_ ?_)
  · refine (window_apply s _ 0 1 (by omega) (by omega) rfl rfl rfl rfl _ b i j).trans (congrArg s ?_)
    exact ix4_congr rfl (Fin.ext (by show min (i.val + 0) 511 = i.val; omega)) (Fin.ext rfl) rfl
  · refine (window_apply s _ 0 0 (by omega) (by omega) rfl rfl rfl rfl _ b i j).trans (congrArg s ?_)
    exact ix4_congr rfl (Fin.ext (by show min (i.val + 0) 511 = i.val; omega))
      (Fin.ext (by show min (j.val + 0) 511 = j.val; omega)) rfl

/-- The products at channel 0: the row difference times the velocity's channel 0. -/
theorem products_apply0 (s : (⟨S32x512x512x1, .f32⟩ : BufTy).Contents (Elt Ideal)) (v : (⟨S32x512x512x2, .f32⟩ : BufTy).Contents (Elt Ideal)) (b : Fin 32) (i j : Fin 512) :
    products s v (ix4 b i j (0 : Fin 2)) = Cert.Advect.dyR s b i j * v (ix4 b i j (0 : Fin 2)) := by
  unfold products
  refine (mulf_apply _ _ _).trans (congrArg (· * v (ix4 b i j (0 : Fin 2))) ?_)
  refine (concatenate_pair_apply_left (t := S32x512x512x2) (s₁ := S32x512x512x1) (s₂ := S32x512x512x1) (3 : Fin 4)
    (diffRows s) (diffCols s) _ (ix4 b i j (0 : Fin 2)) rfl (ix4 b i j (0 : Fin 1)) fun a => ?_).trans
    (diffRows_apply s b i j)
  match a with
  | ⟨0, _⟩ => rfl
  | ⟨1, _⟩ => rfl
  | ⟨2, _⟩ => rfl
  | ⟨3, _⟩ => rfl

/-- The products at channel 1: the column difference times the velocity's channel 1. -/
theorem products_apply1 (s : (⟨S32x512x512x1, .f32⟩ : BufTy).Contents (Elt Ideal)) (v : (⟨S32x512x512x2, .f32⟩ : BufTy).Contents (Elt Ideal)) (b : Fin 32) (i j : Fin 512) :
    products s v (ix4 b i j (1 : Fin 2)) = Cert.Advect.dxR s b i j * v (ix4 b i j (1 : Fin 2)) := by
  unfold products
  refine (mulf_apply _ _ _).trans (congrArg (· * v (ix4 b i j (1 : Fin 2))) ?_)
  refine (concatenate_pair_apply_right (t := S32x512x512x2) (s₁ := S32x512x512x1) (s₂ := S32x512x512x1) (3 : Fin 4)
    (diffRows s) (diffCols s) _ (ix4 b i j (1 : Fin 2)) rfl rfl (ix4 b i j (0 : Fin 1)) (fun a ha => ?_) ?_).trans
    (diffCols_apply s b i j)
  · match a with
    | ⟨0, _⟩ => rfl
    | ⟨1, _⟩ => rfl
    | ⟨2, _⟩ => rfl
    | ⟨3, _⟩ => exact absurd rfl ha
  · show (0 : ℕ) + 1 = 1; rfl

/-- The sum over the channel axis of an array x : [32, 512, 512, 2] at (b, i, j): its two channels added. -/
theorem sum_channels (x : S32x512x512x2.Idx → EReal) (h : S32x512x512x2.Reduces [3] S32x512x512) (b : Fin 32)
    (i j : Fin 512) :
    ∑ k : Fin (S32x512x512x2.size 3), x (h.lift (ix3 b i j) k)
      = x (ix4 b i j (0 : Fin 2)) + x (ix4 b i j (1 : Fin 2)) := by
  show ∑ k : Fin 2, x (h.lift (ix3 b i j) k) = _
  rw [Fin.sum_univ_two]
  refine congrArg₂ (· + ·) (congrArg x ?_) (congrArg x ?_)
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- The composed term at (b, i, j, 0) is the stencil's padded form there. -/
theorem refTerm_apply (s : (⟨S32x512x512x1, .f32⟩ : BufTy).Contents (Elt Ideal)) (v : (⟨S32x512x512x2, .f32⟩ : BufTy).Contents (Elt Ideal)) (b : Fin 32) (i j : Fin 512) :
    refTerm s v (ix4 b i j (0 : Fin 1)) = Cert.Advect.advectRAt s v b i j := by
  unfold refTerm Cert.Advect.advectRAt
  refine (broadcastInDim_apply _ _ _ (ix4 b i j (0 : Fin 1)) (ix3 b i j) fun a => ?_).trans ?_
  · match a with
    | ⟨0, _⟩ => show b.val = if (32 : ℕ) = 1 then 0 else b.val; rw [if_neg (by decide)]
    | ⟨1, _⟩ => show i.val = if (512 : ℕ) = 1 then 0 else i.val; rw [if_neg (by decide)]
    | ⟨2, _⟩ => show j.val = if (512 : ℕ) = 1 then 0 else j.val; rw [if_neg (by decide)]
  refine (hostReduceAdd_apply _ _ _ _ _).trans ?_
  refine (Ideal.hostReduceAdd_single _ (by decide) _ _ _).trans ?_
  refine congrArg₂ (· + ·) ?_ ?_
  · exact (constant_apply _ _).trans Ideal.ofBits_zero_f32
  · refine (sum_channels (products s v) _ b i j).trans
      (congrArg₂ (· + ·) (products_apply0 s v b i j) (products_apply1 s v b i j))

/-- The composed term is the stencil's padded form. -/
theorem refTerm_eq (s : (⟨S32x512x512x1, .f32⟩ : BufTy).Contents (Elt Ideal)) (v : (⟨S32x512x512x2, .f32⟩ : BufTy).Contents (Elt Ideal)) : refTerm s v = Cert.Advect.advectR s v := by
  funext q
  have hq : q = ix4 (q 0 : Fin 32) (q 1 : Fin 512) (q 2 : Fin 512) (0 : Fin 1) :=
    (eq_ix4 q).trans (ix4_congr rfl rfl rfl (@Subsingleton.elim (Fin 1) _ (q 3) 0))
  exact (congrArg (refTerm s v) hq).trans (refTerm_apply s v (q 0) (q 1) (q 2))

/-- On every device, from any memory with zero counters: every weakly fair execution of the reference program
    terminates, with the result buffer at the stencil's padded form of the two arguments' launch contents and the
    arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v10)
            = Cert.Advect.advectR (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run _ _ _).mono (fun _ h c => ⟨(h c).1.trans (refTerm_eq _ _), (h c).2⟩) (run_term m ρ)

end Cert.Advect.Ref

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«155693_j70892730187952_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  The precondition, read. The printed precondition is the conjunction of two all-reductions, one per argument, of the
  comparison |x| < +infinity over every entry. Its one word being 1 makes each reduction 1, and a true reduction makes
  every entry of its argument a real number (neither infinity). Only the state's finiteness is used afterwards: it is
  what makes an entry minus itself zero in the last row and the last column.
-/
import proofs.«155693_j70892730187952_2_alg».proof.Pre_finite_inputs
import proofs.«155693_j70892730187952_2_alg».proof.Proof.LibAllFinite
import Idealize.ShloMosaic.Lib.Affine

noncomputable section

namespace Cert.Advect.Finite

open Idealize.ShloMosaic Idealize.ShloMosaic.ValueIdx Cert.LibRealEntries Cert.LibAllFinite

variable [Cert.Pre_finite_inputs.Facts]

/-- Under the precondition every entry of the state and every entry of the velocity is a real number. -/
theorem real_of_pre (a0 : FVec Ideal Cert.Pre_finite_inputs.S32x512x512x1 .f32)
    (a1 : FVec Ideal Cert.Pre_finite_inputs.S32x512x512x2 .f32)
    (h : Cert.Pre_finite_inputs.fn (F := Ideal) a0 a1 = fun _ => 1#1) :
    (∀ q, IsReal (a0 q)) ∧ (∀ q, IsReal (a1 q)) := by
  have h0 := congrFun h ix0
  dsimp only [Cert.Pre_finite_inputs.fn] at h0
  obtain ⟨ha, hb⟩ := IntOp.andi_eq_one.mp h0
  exact ⟨fun q => real_of_all a0 _ _ _ _ ha q, fun q => real_of_all a1 _ _ _ _ hb q⟩

end Cert.Advect.Finite

end
-- ==== Proof.lean ====
/-
  The advection stencil kernel against its reference, over the extended reals.

  Both programs compute, at every (b, i, j),  dy * v(b, i, j, 0) + dx * v(b, i, j, 1)  with dy, dx the forward
  differences of the state s along the row and the column axis. The kernel takes the differences against the cyclic
  successor inside each [512, 512] plane and replaces them by 0 in the last row and column; the reference pads the
  state by repeating its last row and column, takes plain differences, and adds the two channel products to 0. Away
  from the last row and column the two are the same term. There the reference subtracts an entry from itself, which on
  the extended reals is 0 exactly when the entry is a real number: this is where the precondition (every input finite)
  is used, and the only place.

  The three frames: the two kernel programs' are the generated frame certificates; the reference's is its run with the
  result dropped. The idealization rewrote nothing, so the fourth conjunct is trivial. The fifth pairs the kernel
  program's run (its result read off the frame run: blocks, then the whole array, then the reshape after the region)
  with the reference's run (its operations composed and read entry by entry), at the kernel's form of the stencil.
-/
import proofs.«155693_j70892730187952_2_alg».proof.Defs
import proofs.«155693_j70892730187952_2_alg».proof.Proof.Gen.Kernel
import proofs.«155693_j70892730187952_2_alg».proof.Proof.Gen.Kernel.Frame
import proofs.«155693_j70892730187952_2_alg».proof.Proof.Gen.KernelIdeal
import proofs.«155693_j70892730187952_2_alg».proof.Proof.Gen.KernelIdeal.Frame
import proofs.«155693_j70892730187952_2_alg».proof.Proof.Gen.ReferenceIdeal
import proofs.«155693_j70892730187952_2_alg».proof.Proof.Gen.Pre_finite_inputs
import proofs.«155693_j70892730187952_2_alg».proof.Proof.KernelRun
import proofs.«155693_j70892730187952_2_alg».proof.Proof.RefValue
import proofs.«155693_j70892730187952_2_alg».proof.Proof.Finite
import proofs.«155693_j70892730187952_2_alg».proof.Proof.Spec
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.Advect.Ref.run m ρ)

/-- From memories agreeing on the arguments both programs end at the kernel form of the stencil of the kernel's
    arguments: the kernel by its run; the reference at its own form of the same arguments, which is the kernel's form
    because every entry of the state is a real number. -/
theorem algebraic : Cert.algebraic_KernelIdeal_ReferenceIdeal := by
  intro m ρ m' ρ' hpre hagree
  refine ⟨fun c => Cert.Advect.advectK (m ((c.tc : Thread _ _).loc Cert.KernelIdeal.main_arg0))
      (m ((c.tc : Thread _ _).loc Cert.KernelIdeal.main_arg1)),
    Cert.Advect.Kernel.run m ρ, ?_⟩
  refine (θ_run Cert.ReferenceIdeal.defs _ _).mono (fun _ h c => ⟨(h c).1.trans ?_, (h c).2⟩)
    (Cert.Advect.Ref.run m' ρ')
  rw [(hagree c).1, (hagree c).2]
  exact Cert.Advect.advectR_eq_advectK _ _ (Cert.Advect.Finite.real_of_pre _ _ (hpre c)).1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
